-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256 .f32) (main_arg7 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S10000x256 .f32) (main_arg1 : IVec S2x320000 32) (main_arg2 : FVec F S512x256 .f32) (main_arg3 : FVec F S256 .f32) (main_arg4 : FVec F S512x256 .f32) (main_arg5 : FVec F S256 .f32) (main_arg6 : FVec F S256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_v13 main_v16
-- ==== Kernel.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S256x256 : Shape := ⟨2, ![256, 256]⟩
abbrev S1000x256 : Shape := ⟨2, ![1000, 256]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S1000 : Shape := ⟨1, ![1000]⟩
abbrev S1000x1 : Shape := ⟨2, ![1000, 1]⟩

abbrev nBuf : Space → Nat
  | .hbm => 55
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S256x256, .f32⟩
  | .hbm, ⟨13, _⟩ => ⟨S256x256, .bf16⟩
  | .hbm, ⟨14, _⟩ => ⟨S256x256, .f32⟩
  | .hbm, ⟨15, _⟩ => ⟨S256x256, .bf16⟩
  | .hbm, ⟨16, _⟩ => ⟨S10000x256, .f32⟩
  | .hbm, ⟨17, _⟩ => ⟨S10000x256, .f32⟩
  | .hbm, ⟨18, _⟩ => ⟨S1x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x256, .f32⟩
  | .hbm, ⟨37, _⟩ => ⟨S320000x256, .f32⟩
  | .hbm, ⟨38, _⟩ => ⟨S320000x256, .f32⟩
  | .hbm, ⟨39, _⟩ => ⟨S320000x256, .f32⟩
  | .hbm, ⟨40, _⟩ => ⟨S_, .f32⟩
  | .hbm, ⟨41, _⟩ => ⟨S320000x256, .f32⟩
  | .hbm, ⟨42, _⟩ => ⟨S320000x256, .f32⟩
  | .hbm, ⟨43, _⟩ => ⟨S_, .f32⟩
  | .hbm, ⟨44, _⟩ => ⟨S10000x256, .f32⟩
  | .hbm, ⟨45, _⟩ => ⟨S320000x1, .i32⟩
  | .hbm, ⟨46, _⟩ => ⟨S10000x256, .f32⟩
  | .hbm, ⟨47, _⟩ => ⟨S256x256, .f32⟩
  | .hbm, ⟨48, _⟩ => ⟨S256x256, .bf16⟩
  | .hbm, ⟨49, _⟩ => ⟨S256x256, .f32⟩
  | .hbm, ⟨50, _⟩ => ⟨S256x256, .bf16⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x256, .bf16⟩
  | .local _ .vmem, ⟨3, _⟩ => ⟨S256x256, .bf16⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1000x256, .f32⟩
  | .local _ .vmem, ⟨18, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S512x256_S256x256_0_0 : S512x256.Slices ![0, 0] S256x256
  bitsLt_bf16_f32 : FTy.bits .bf16 < FTy.bits .f32
  slices_S512x256_S256x256_256_0 : S512x256.Slices ![256, 0] S256x256
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  bcast_S_S320000 : S_.BroadcastsInDim S320000 (![] : Fin 0 → Fin S320000.rank)
  bcast_S320000_S320000x1_0 : S320000.BroadcastsInDim S320000x1 (![0] : Fin 1 → Fin S320000x1.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000x256 : S_.BroadcastsInDim S10000x256 (![] : Fin 0 → Fin S10000x256.rank)
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  dot_S1000x256_S256x256_S1000x256_1_0_0_1_n_n_wf : DotDims.WF S1000x256 S256x256 S1000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S10000x256.size a
  hwx0_4 : ∀ i : grid0.Coords, EltTy.bits .f32 = 32 ∨ (Rect.block (s := S10000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S10000x256.size a
  hwx1_7 : ∀ i : grid1.Coords, EltTy.bits .f32 = 32 ∨ (Rect.block (s := S10000x256) S1000x256.size (cc1_transform_7 i) (hinb1_7 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x256 : Shape := ⟨2, ![1, 256]⟩
abbrev S10000x512 : Shape := ⟨2, ![10000, 512]⟩
abbrev S10000 : Shape := ⟨1, ![10000]⟩
abbrev S10000x1 : Shape := ⟨2, ![10000, 1]⟩

abbrev nBuf : Space → Nat
  | .hbm => 79
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x512, .f32⟩
  | .hbm, ⟨31, _⟩ => ⟨S320000x256, .f32⟩
  | .hbm, ⟨32, _⟩ => ⟨S1x256, .f32⟩
  | .hbm, ⟨33, _⟩ => ⟨S320000x256, .f32⟩
  | .hbm, ⟨34, _⟩ => ⟨S320000x256, .f32⟩
  | .hbm, ⟨35, _⟩ => ⟨S_, .f32⟩
  | .hbm, ⟨36, _⟩ => ⟨S320000x256, .f32⟩
  | .hbm, ⟨37, _⟩ => ⟨S320000x256, .f32⟩
  | .hbm, ⟨38, _⟩ => ⟨S_, .f32⟩
  | .hbm, ⟨39, _⟩ => ⟨S10000x256, .f32⟩
  | .hbm, ⟨40, _⟩ => ⟨S320000x1, .i32⟩
  | .hbm, ⟨41, _⟩ => ⟨S10000x256, .f32⟩
  | .hbm, ⟨42, _⟩ => ⟨S10000x512, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S_, .f32⟩
  | .hbm, ⟨54, _⟩ => ⟨S10000x1, .f32⟩
  | .hbm, ⟨55, _⟩ => ⟨S10000x1, .f32⟩
  | .hbm, ⟨56, _⟩ => ⟨S10000x256, .f32⟩
  | .hbm, ⟨57, _⟩ => ⟨S10000x256, .f32⟩
  | .hbm, ⟨58, _⟩ => ⟨S10000x256, .f32⟩
  | .hbm, ⟨59, _⟩ => ⟨S_, .f32⟩
  | .hbm, ⟨60, _⟩ => ⟨S10000, .f32⟩
  | .hbm, ⟨61, _⟩ => ⟨S10000x1, .f32⟩
  | .hbm, ⟨62, _⟩ => ⟨S_, .f32⟩
  | .hbm, ⟨63, _⟩ => ⟨S10000x1, .f32⟩
  | .hbm, ⟨64, _⟩ => ⟨S10000x1, .f32⟩
  | .hbm, ⟨65, _⟩ => ⟨S10000x256, .f32⟩
  | .hbm, ⟨66, _⟩ => ⟨S10000x256, .f32⟩
  | .hbm, ⟨67, _⟩ => ⟨S_, .f32⟩
  | .hbm, ⟨68, _⟩ => ⟨S10000x1, .f32⟩
  | .hbm, ⟨69, _⟩ => ⟨S10000x1, .f32⟩
  | .hbm, ⟨70, _⟩ => ⟨S10000x1, .f32⟩
  | .hbm, ⟨71, _⟩ => ⟨S10000x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | .hbm, ⟨76, _⟩ => ⟨S1x256, .f32⟩
  | .hbm, ⟨77, _⟩ => ⟨S10000x256, .f32⟩
  | .hbm, ⟨78, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_cst : Ref sig .tc := ⟨.hbm, 47, rfl⟩
abbrev main_call1_v0 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000x256 : S_.BroadcastsInDim S10000x256 (![] : Fin 0 → Fin S10000x256.rank)
  concatenates_S10000x256_S10000x256_S10000x512_d1 : Shape.Concatenates [S10000x256, S10000x256] S10000x512 1
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S320000x512_S512x256_S320000x256_1_0_0_1_n_n_wf : DotDims.WF S320000x512 S512x256 S320000x256 [1] [0] [0] [1] [] []
  scatter_S10000x256_S320000x1_S320000x256_1_0_0_1_wf : ScatterDims.WF S10000x256 S320000x1 S320000x256 [1] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.KRun.lean ====
/-
  The idealized kernel program's run with its buffers named.

  @main is six segments: a stretch of host operations, the projection kernel's region, three stretches of host
  operations (the second is the rectifier's body), the update kernel's region. The buffer contents at the segment
  boundaries form a fold from the launch memory: a host stretch applies its operations, a region replaces each of
  its output arrays by what its grid points write back and keeps every other buffer. This module states that every
  weakly fair execution terminates, without a fault, in a state where EVERY buffer that outlives the regions holds
  the last boundary's contents; the result array and the unchanged arguments are read off that one statement.
-/
import proofs.«159374_j48120813584763_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the memory `m` terminates without a fault, and in its final state every
    buffer that outlives the regions holds the contents of the last segment boundary, `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The update kernel's output array is region 1's window 7. -/
theorem out_ref : Pipeline.arrRef spec1 7 = main_v38 := rfl

/-- The run with the result named: the result array ends at what the update kernel's grid points write back into it,
    over the contents the region is entered with, and every argument array ends as launched. -/
theorem run : θ_run defs (onTc (τ := τ) (main (F := F))) ⟨m, fun _ => 0, ρ⟩ (fun r => ∀ c : Dev nD,
      r.2.mem ((c.tc : Thread nD τ).loc main_v38) = (dat1 (V5 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨(h c _ (mem_uc main_v38 (by decide))).trans (W6_arr m ρ c 7),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_all m ρ)

end Cert.KernelIdeal.KRun

end
-- ==== Proof.LibTRefCasts.lean ====
/-
  The operations of a function that the host program calls (here the clamp at zero) are printed over typed references:
  a value's contents are carried to its buffer's type and back by a cast along an equation between the two spellings of
  one type.  The casts change nothing: there and back is the identity, and each way the contents stay the same up to
  the spelling of their type.
-/
import Idealize.ShloMosaic.Lib.StableHlo

namespace Cert.Casts

open Idealize.ShloMosaic Idealize.ShloMosaic.StableHlo

variable {sig : RefSig} {Val : EltTy → Type} {T : BufTy}

/-- Contents carried to a typed reference's buffer and back are the contents. -/
theorem ofBuf_toBuf (x : TRef sig T) (w : T.Contents Val) : x.ofBuf (x.toBuf w) = w := by
  show cast _ (cast _ w) = w
  rw [cast_cast, cast_eq]

/-- Carrying contents to a typed reference's buffer changes nothing but the spelling of their type. -/
theorem toBuf_heq (x : TRef sig T) (w : T.Contents Val) : HEq (x.toBuf w) w := cast_heq _ _

/-- Carrying a buffer's contents to the value's type changes nothing but the spelling of their type. -/
theorem ofBuf_heq (x : TRef sig T) (u : x.ref.ty.Contents Val) : HEq (x.ofBuf u) u := cast_heq _ _

end Cert.Casts
-- ==== Proof.KHost.lean ====
/-
  The host lines of the idealized kernel program, read back: what each kernel region's input arrays hold when the
  region is entered, as terms of the launch memory.

  Before the projection kernel the host slices the edge list into its two rows, and the message matrix into its upper
  and lower 256 rows (each narrowed to bf16). Between the two kernels it gathers the rows of the two projections at the
  edges' end nodes, adds them and the message bias, rectifies, and scatter-adds the messages onto their destination
  nodes; it slices and narrows the update matrix the same way and lays the three [256] vectors out as [1,256] rows.
  Each reading is the fold of the stretch's operations over the previous boundary's contents, one operation at a time.
-/
import proofs.«159374_j48120813584763_2_alg».proof.Proof.Gen.KernelIdeal.Frame
import proofs.«159374_j48120813584763_2_alg».proof.Proof.LibTRefCasts
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.KHost

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The terms -/

/-- Row `r` (0 or 1) of the edge list as a [320000] vector. -/
def rowOf0 (x1 : IVec S2x320000 32) : IVec S320000 32 :=
  shapeCast _ (extractStridedSlice S1x320000 ![0, 0] x1 slices_S2x320000_S1x320000_0_0) shapeCasts_S1x320000_S320000
def rowOf1 (x1 : IVec S2x320000 32) : IVec S320000 32 :=
  shapeCast _ (extractStridedSlice S1x320000 ![1, 0] x1 slices_S2x320000_S1x320000_1_0) shapeCasts_S1x320000_S320000

/-- The upper / lower 256 rows of a [512,256] matrix, narrowed to bf16 (the identity on extended reals). -/
def upper (w : FVec Ideal S512x256 .f32) : FVec Ideal S256x256 .bf16 :=
  truncf .bf16 (extractStridedSlice S256x256 ![0, 0] w slices_S512x256_S256x256_0_0) bitsLt_bf16_f32
def lower (w : FVec Ideal S512x256 .f32) : FVec Ideal S256x256 .bf16 :=
  truncf .bf16 (extractStridedSlice S256x256 ![256, 0] w slices_S512x256_S256x256_256_0) bitsLt_bf16_f32

/-- A [256] vector laid out as a [1,256] row. -/
def asRow (v : FVec Ideal S256 .f32) : FVec Ideal S1x256 .f32 :=
  shapeCast _ v shapeCasts_S256_S1x256

/-- The column of gather row numbers of a [320000] vector of node numbers: a negative number wrapped by 10000. -/
def gatherCol (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- The message pre-activation of the kernel program: rows of the two projections at the edges' ends, added, plus the bias row. -/
def msgPre (P Q : FVec Ideal S10000x256 .f32) (r cl : IVec S320000 32) (b : FVec Ideal S1x256 .f32) : FVec Ideal S320000x256 .f32 :=
  addf (addf (Host.gather gather_S10000x256_S320000x1_S320000x256_1_0_n_n_0_1_1256 P (gatherCol r))
             (Host.gather gather_S10000x256_S320000x1_S320000x256_1_0_n_n_0_1_1256 Q (gatherCol cl)))
       (broadcastInDim S320000x256 ![0, 1] bcast_S1x256_S320000x256_0_1 b)

/-- The aggregate of the kernel program: the rectified messages scatter-added onto their destination nodes. -/
def agg (pre : FVec Ideal S320000x256 .f32) (cl : IVec S320000 32) : FVec Ideal S10000x256 .f32 :=
  Host.scatterAdd scatter_S10000x256_S320000x1_S320000x256_1_0_0_1
    (broadcastInDim S10000x256 ![] bcast_S_S10000x256 (constant (F := Ideal) S_ .f32 0x00000000#32))
    (broadcastInDim S320000x1 ![0] bcast_S320000_S320000x1_0 cl)
    (maximumf pre (broadcastInDim S320000x256 ![] bcast_S_S320000x256 (constant (F := Ideal) S_ .f32 0x00000000#32)))

/-! ## Region 0's entry: the first stretch over the launch memory -/

theorem W1_arg0 : W1 m ρ c (Proc.devRef .tc main_arg0) = m ((c : Thread nD τ).loc main_arg0) := by
  show StableHlo.after hostOps0 (W0 m ρ c) _ = _; after_results <;> rfl
theorem W1_arg3 : W1 m ρ c (Proc.devRef .tc main_arg3) = m ((c : Thread nD τ).loc main_arg3) := by
  show StableHlo.after hostOps0 (W0 m ρ c) _ = _; after_results <;> rfl
theorem W1_arg4 : W1 m ρ c (Proc.devRef .tc main_arg4) = m ((c : Thread nD τ).loc main_arg4) := by
  show StableHlo.after hostOps0 (W0 m ρ c) _ = _; after_results <;> rfl
theorem W1_arg5 : W1 m ρ c (Proc.devRef .tc main_arg5) = m ((c : Thread nD τ).loc main_arg5) := by
  show StableHlo.after hostOps0 (W0 m ρ c) _ = _; after_results <;> rfl
theorem W1_arg6 : W1 m ρ c (Proc.devRef .tc main_arg6) = m ((c : Thread nD τ).loc main_arg6) := by
  show StableHlo.after hostOps0 (W0 m ρ c) _ = _; after_results <;> rfl
theorem W1_arg7 : W1 m ρ c (Proc.devRef .tc main_arg7) = m ((c : Thread nD τ).loc main_arg7) := by
  show StableHlo.after hostOps0 (W0 m ρ c) _ = _; after_results <;> rfl
theorem W1_v1 : W1 m ρ c (Proc.devRef .tc main_v1) = rowOf0 (m ((c : Thread nD τ).loc main_arg1)) := by
  show StableHlo.after hostOps0 (W0 m ρ c) _ = _; after_results <;> rfl
theorem W1_v3 : W1 m ρ c (Proc.devRef .tc main_v3) = rowOf1 (m ((c : Thread nD τ).loc main_arg1)) := by
  show StableHlo.after hostOps0 (W0 m ρ c) _ = _; after_results <;> rfl
theorem W1_v5 : W1 m ρ c (Proc.devRef .tc main_v5) = upper (m ((c : Thread nD τ).loc main_arg2)) := by
  show StableHlo.after hostOps0 (W0 m ρ c) _ = _; after_results <;> rfl
theorem W1_v7 : W1 m ρ c (Proc.devRef .tc main_v7) = lower (m ((c : Thread nD τ).loc main_arg2)) := by
  show StableHlo.after hostOps0 (W0 m ρ c) _ = _; after_results <;> rfl

/-! ## Region 0's exit: its outputs are the region's, every other buffer is as entered -/

theorem W2_v1 : W2 m ρ c (Proc.devRef .tc main_v1) = W1 m ρ c (Proc.devRef .tc main_v1) :=
  W2_of_ne m ρ c main_v1 (by decide)
theorem W2_v3 : W2 m ρ c (Proc.devRef .tc main_v3) = W1 m ρ c (Proc.devRef .tc main_v3) :=
  W2_of_ne m ρ c main_v3 (by decide)
theorem W2_arg3 : W2 m ρ c (Proc.devRef .tc main_arg3) = W1 m ρ c (Proc.devRef .tc main_arg3) :=
  W2_of_ne m ρ c main_arg3 (by decide)
theorem W2_arg4 : W2 m ρ c (Proc.devRef .tc main_arg4) = W1 m ρ c (Proc.devRef .tc main_arg4) :=
  W2_of_ne m ρ c main_arg4 (by decide)
theorem W2_arg5 : W2 m ρ c (Proc.devRef .tc main_arg5) = W1 m ρ c (Proc.devRef .tc main_arg5) :=
  W2_of_ne m ρ c main_arg5 (by decide)
theorem W2_arg6 : W2 m ρ c (Proc.devRef .tc main_arg6) = W1 m ρ c (Proc.devRef .tc main_arg6) :=
  W2_of_ne m ρ c main_arg6 (by decide)
theorem W2_arg7 : W2 m ρ c (Proc.devRef .tc main_arg7) = W1 m ρ c (Proc.devRef .tc main_arg7) :=
  W2_of_ne m ρ c main_arg7 (by decide)
/-- The feature array is region 0's first input window: it ends the region as it entered it. -/
theorem W2_arg0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-! ## Region 1's entry: the three stretches between the regions over region 0's exit contents -/

theorem W5_arg0 : W5 m ρ c (Proc.devRef .tc main_arg0) = W2 m ρ c (Proc.devRef .tc main_arg0) := by
  show StableHlo.after hostOps1_2 (StableHlo.after hostOps1_1 (StableHlo.after hostOps1 (W2 m ρ c))) _ = _
  after_results <;> rfl
theorem W5_v32 : W5 m ρ c (Proc.devRef .tc main_v32) = upper (W2 m ρ c (Proc.devRef .tc main_arg4)) := by
  show StableHlo.after hostOps1_2 (StableHlo.after hostOps1_1 (StableHlo.after hostOps1 (W2 m ρ c))) _ = _
  after_results <;> rfl
theorem W5_v34 : W5 m ρ c (Proc.devRef .tc main_v34) = lower (W2 m ρ c (Proc.devRef .tc main_arg4)) := by
  show StableHlo.after hostOps1_2 (StableHlo.after hostOps1_1 (StableHlo.after hostOps1 (W2 m ρ c))) _ = _
  after_results <;> rfl
theorem W5_v35 : W5 m ρ c (Proc.devRef .tc main_v35) = asRow (W2 m ρ c (Proc.devRef .tc main_arg5)) := by
  show StableHlo.after hostOps1_2 (StableHlo.after hostOps1_1 (StableHlo.after hostOps1 (W2 m ρ c))) _ = _
  after_results <;> rfl
theorem W5_v36 : W5 m ρ c (Proc.devRef .tc main_v36) = asRow (W2 m ρ c (Proc.devRef .tc main_arg6)) := by
  show StableHlo.after hostOps1_2 (StableHlo.after hostOps1_1 (StableHlo.after hostOps1 (W2 m ρ c))) _ = _
  after_results <;> rfl
theorem W5_v37 : W5 m ρ c (Proc.devRef .tc main_v37) = asRow (W2 m ρ c (Proc.devRef .tc main_arg7)) := by
  show StableHlo.after hostOps1_2 (StableHlo.after hostOps1_1 (StableHlo.after hostOps1 (W2 m ρ c))) _ = _
  after_results <;> rfl
set_option maxHeartbeats 2000000 in
/-- After the 22 host lines that follow the projection kernel: the message pre-activation of the two projections. -/
theorem W3_v26 : W3 m ρ c (Proc.devRef .tc main_v26)
    = msgPre (W2 m ρ c (Proc.devRef .tc main_v8_0)) (W2 m ρ c (Proc.devRef .tc main_v8_1))
        (W2 m ρ c (Proc.devRef .tc main_v1)) (W2 m ρ c (Proc.devRef .tc main_v3)) (asRow (W2 m ρ c (Proc.devRef .tc main_arg3))) := by
  show StableHlo.after hostOps1 (W2 m ρ c) _ = _
  generalize W2 m ρ c = F
  after_results_simp <;> rfl

/-- The destination column passes the 22 host lines and the rectifier unchanged. -/
theorem W4_v3 : W4 m ρ c (Proc.devRef .tc main_v3) = W2 m ρ c (Proc.devRef .tc main_v3) := by
  show StableHlo.after hostOps1_1 (StableHlo.after hostOps1 (W2 m ρ c)) _ = _
  generalize W2 m ρ c = F
  after_results_simp <;> rfl

/-- The rectifier's three lines: the maximum with the zero array. Its operations are printed over typed references,
    whose casts between the two spellings of a buffer's type change nothing. -/
theorem W4_v27 : W4 m ρ c (Proc.devRef .tc main_v27)
    = maximumf (W3 m ρ c (Proc.devRef .tc main_v26))
        (broadcastInDim S320000x256 ![] bcast_S_S320000x256 (constant (F := Ideal) S_ .f32 0x00000000#32)) := by
  show StableHlo.after hostOps1_1 (W3 m ρ c) _ = _
  generalize W3 m ρ c = F
  after_results
  simp only [Cert.Casts.ofBuf_toBuf]
  refine eq_of_heq ((Cert.Casts.toBuf_heq _ _).trans ?_)
  rw [show (StableHlo.TRef.of (T := ⟨S320000x256, .f32⟩) main_v26).ofBuf (F (Proc.devRef .tc main_v26))
      = F (Proc.devRef .tc main_v26) from eq_of_heq (Cert.Casts.ofBuf_heq _ _)]

/-- The last 11 host lines: the scatter-add of the rectified messages, over the contents after the rectifier. -/
theorem W5_v30' : W5 m ρ c (Proc.devRef .tc main_v30)
    = Host.scatterAdd scatter_S10000x256_S320000x1_S320000x256_1_0_0_1
        (broadcastInDim S10000x256 ![] bcast_S_S10000x256 (constant (F := Ideal) S_ .f32 0x00000000#32))
        (broadcastInDim S320000x1 ![0] bcast_S320000_S320000x1_0 (W4 m ρ c (Proc.devRef .tc main_v3)))
        (W4 m ρ c (Proc.devRef .tc main_v27)) := by
  show StableHlo.after hostOps1_2 (W4 m ρ c) _ = _
  generalize W4 m ρ c = F
  after_results_simp <;> rfl

/-- The aggregate array at region 1's entry: the kernel program's aggregate of the two projections region 0 left. -/
theorem W5_v30 : W5 m ρ c (Proc.devRef .tc main_v30)
    = agg (msgPre (W2 m ρ c (Proc.devRef .tc main_v8_0)) (W2 m ρ c (Proc.devRef .tc main_v8_1))
        (W2 m ρ c (Proc.devRef .tc main_v1)) (W2 m ρ c (Proc.devRef .tc main_v3)) (asRow (W2 m ρ c (Proc.devRef .tc main_arg3))))
        (W2 m ρ c (Proc.devRef .tc main_v3)) := by
  rw [W5_v30', W4_v3, W4_v27, W3_v26]
  rfl

end Cert.KernelIdeal.KHost

end
-- ==== Proof.Reg0.lean ====
/-
  The projection kernel's region: its two output arrays as whole-array functions of the contents the region is
  entered with.

  The grid has 10 points. At point `t` the input window over the [10000,256] array holds rows `1000 t … 1000 t + 999`,
  the two [256,256] weight windows hold their whole arrays (one block, index (0,0), at every point), and each output
  window writes rows `1000 t … 1000 t + 999` back. The tile computes, in row `p` and column `q`, the sum over `k` of
  the block's entry `(p,k)` times the weight's entry `(k,q)` — that reading of the tile is a hypothesis here, proved
  beside the other tile readings — so what point `t` writes back is rows `1000 t …` of the whole product
  `X · W`, and the ten row blocks cover the array: each output array ends as the product.
-/
import proofs.«159374_j48120813584763_2_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a [10000,256] array with a [256,256] matrix, entry by entry. -/
def prodArr (X : S10000x256.Idx → EReal) (W : S256x256.Idx → EReal) : S10000x256.Idx → EReal :=
  fun i => ∑ k : Fin 256, X (ix2 (i 0) k) * W (ix2 k (i 1))

theorem prodArr_apply (X : S10000x256.Idx → EReal) (W : S256x256.Idx → EReal) (i : S10000x256.Idx) :
    prodArr X W i = ∑ k : Fin 256, X (ix2 (i 0) k) * W (ix2 k (i 1)) := rfl

/-- The printed index maps, decided over the grid: the row windows (input 0, outputs 3 and 4) sit at block `(t, 0)`,
    the weight windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the input block at point `t` is row `1000 t + p` of the array. -/
theorem x_blk (c : Dev nD) (t : Fin cfg0.N) (p : Fin 1000) (k : Fin 256) (r : Fin 10000) (hr : r.val = 1000 * t.val + p.val) :
    (iblk0 V c 0 t : Vec Ideal S1000x256 .f32) (ix2 p k) = (V c main_arg0 : S10000x256.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 1000 + 1 * p.val = r.val; rw [e0, hr]; omega
  | ⟨1, _⟩ => show win0_0.index t 1 * 256 + 1 * k.val = k.val; rw [e1]; omega

/-- The first weight window's block is its whole array at every point. -/
theorem wa_blk (c : Dev nD) (t : Fin cfg0.N) (k q : Fin 256) :
    (iblk0 V c 1 t : Vec Ideal S256x256 .bf16) (ix2 k q) = (V c main_v5 : S256x256.Idx → EReal) (ix2 k q) := by
  obtain ⟨-, -, e0, e1, -⟩ := idx_facts t
  unfold iblk0
  rw [View.read_apply]
  show V c main_v5 _ = V c main_v5 _
  congr 1
  funext a
  apply Fin.ext
  match a with
  | ⟨0, _⟩ => show win0_1.index t 0 * 256 + 1 * k.val = k.val; rw [e0]; omega
  | ⟨1, _⟩ => show win0_1.index t 1 * 256 + 1 * q.val = q.val; rw [e1]; omega

/-- The second weight window's block is its whole array at every point. -/
theorem wb_blk (c : Dev nD) (t : Fin cfg0.N) (k q : Fin 256) :
    (iblk0 V c 2 t : Vec Ideal S256x256 .bf16) (ix2 k q) = (V c main_v7 : S256x256.Idx → EReal) (ix2 k q) := by
  obtain ⟨-, -, -, -, e0, e1, -⟩ := idx_facts t
  unfold iblk0
  rw [View.read_apply]
  show V c main_v7 _ = V c main_v7 _
  congr 1
  funext a
  apply Fin.ext
  match a with
  | ⟨0, _⟩ => show win0_2.index t 0 * 256 + 1 * k.val = k.val; rw [e0]; omega
  | ⟨1, _⟩ => show win0_2.index t 1 * 256 + 1 * q.val = q.val; rw [e1]; omega

/-- Row `p` of an output block at point `t` is row `1000 t + p` of its array (outputs 3 and 4 share the index map). -/
theorem out_emb3 (t : Fin cfg0.N) (p : Fin 1000) (q : Fin 256) :
    ((((cfg0.win 3).blk t).view.emb (ix2 p q) : S10000x256.Idx) 0).val = 1000 * t.val + p.val
    ∧ ((((cfg0.win 3).blk t).view.emb (ix2 p q) : S10000x256.Idx) 1).val = q.val := by
  obtain ⟨-, -, -, -, -, -, e0, e1, -⟩ := idx_facts t
  constructor
  · show win0_3.index t 0 * 1000 + 1 * p.val = _; rw [e0]; omega
  · show win0_3.index t 1 * 256 + 1 * q.val = _; rw [e1]; omega

theorem out_emb4 (t : Fin cfg0.N) (p : Fin 1000) (q : Fin 256) :
    ((((cfg0.win 4).blk t).view.emb (ix2 p q) : S10000x256.Idx) 0).val = 1000 * t.val + p.val
    ∧ ((((cfg0.win 4).blk t).view.emb (ix2 p q) : S10000x256.Idx) 1).val = q.val := by
  obtain ⟨-, -, -, -, -, -, -, -, e0, e1⟩ := idx_facts t
  constructor
  · show win0_4.index t 0 * 1000 + 1 * p.val = _; rw [e0]; omega
  · show win0_4.index t 1 * 256 + 1 * q.val = _; rw [e1]; omega

section Flushed

-- The tile's reading (proved with the other tile readings): in row p, column q the first projection is the sum
-- over k of the block's (p,k) times the weight's (k,q).
variable (hprojA : ∀ (v0 : Vec Ideal S1000x256 .f32) (v2 : Vec Ideal S256x256 .bf16) (p : Fin 1000) (q : Fin 256),
    k0_pay2 (F := Ideal) v0 v2 (ix2 p q) = ∑ k : Fin 256, v0 (ix2 p k) * v2 (ix2 k q))
-- The same for the second projection.
variable (hprojB : ∀ (v0 : Vec Ideal S1000x256 .f32) (v6 : Vec Ideal S256x256 .bf16) (p : Fin 1000) (q : Fin 256),
    k0_pay3 (F := Ideal) v0 v6 (ix2 p q) = ∑ k : Fin 256, v0 (ix2 p k) * v6 (ix2 k q))

include hprojA in
/-- What point `t` writes back into the first output is rows `1000 t …` of the product with the first weight. -/
theorem flushedP (c : Dev nD) (t : Fin cfg0.N) :
    (dat0 V c).flushed 3 t = ((cfg0.win 3).blk t).view.read (Elt Ideal) (prodArr (V c main_arg0) (V c main_v5)) := by
  show (cfg0.win 3).cut (grid0.coords t) ((dat0 V c).after 3 t) = _
  rw [after0_3]
  unfold out0_3
  rw [View.canon_unit_zero hz]
  simp only [View.ld_unit_zero (S := S1000x256) hz, View.ld_unit_zero (S := S256x256) hz]
  funext j
  obtain ⟨p, q, rfl⟩ : ∃ (p : Fin 1000) (q : Fin 256), j = ix2 p q := ⟨j 0, j 1, eq_ix2 j⟩
  obtain ⟨h0, h1⟩ := out_emb3 t p q
  refine (hprojA (iblk0 V c 0 t) (iblk0 V c 1 t) p q).trans ?_
  rw [View.read_apply, prodArr_apply]
  have hq : ((((cfg0.win 3).blk t).view.emb (ix2 p q) : S10000x256.Idx) 1) = q := Fin.ext h1
  rw [hq]
  refine Finset.sum_congr rfl fun k _ => ?_
  rw [x_blk V c t p k _ h0, wa_blk V c t k q]

include hprojB in
/-- What point `t` writes back into the second output is rows `1000 t …` of the product with the second weight. -/
theorem flushedQ (c : Dev nD) (t : Fin cfg0.N) :
    (dat0 V c).flushed 4 t = ((cfg0.win 4).blk t).view.read (Elt Ideal) (prodArr (V c main_arg0) (V c main_v7)) := by
  show (cfg0.win 4).cut (grid0.coords t) ((dat0 V c).after 4 t) = _
  rw [after0_4]
  unfold out0_4
  rw [View.canon_unit_zero hz]
  simp only [View.ld_unit_zero (S := S1000x256) hz, View.ld_unit_zero (S := S256x256) hz]
  funext j
  obtain ⟨p, q, rfl⟩ : ∃ (p : Fin 1000) (q : Fin 256), j = ix2 p q := ⟨j 0, j 1, eq_ix2 j⟩
  obtain ⟨h0, h1⟩ := out_emb4 t p q
  refine (hprojB (iblk0 V c 0 t) (iblk0 V c 2 t) p q).trans ?_
  rw [View.read_apply, prodArr_apply]
  have hq : ((((cfg0.win 4).blk t).view.emb (ix2 p q) : S10000x256.Idx) 1) = q := Fin.ext h1
  rw [hq]
  refine Finset.sum_congr rfl fun k _ => ?_
  rw [x_blk V c t p k _ h0, wb_blk V c t k q]

/-- An index of the first output array is in point `t`'s block iff its row is among rows `1000 t … 1000 t + 999`. -/
theorem mem_blk3 (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v8_0).slice (win0_3.rect t)).set ↔ _
  rw [View.set_slice_whole, Rect.mem_set_unit]
  exact Iff.rfl

theorem mem_blk4 (t : Fin cfg0.N) (i : S10000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v8_1).slice (win0_4.rect t)).set ↔ _
  rw [View.set_slice_whole, Rect.mem_set_unit]
  exact Iff.rfl

/-- The ten row blocks cover the first output array: row `r` is in the block of point `r / 1000`. -/
theorem cover3 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := N_0
  let t : Fin cfg0.N := ⟨(i 0).val / 1000, by rw [hN]; omega⟩
  obtain ⟨-, -, -, -, -, -, e0, e1, -⟩ := idx_facts t
  refine ⟨t, flush0_3 t, ?_⟩
  rw [mem_blk3]
  intro a
  match a with
  | ⟨0, _⟩ => show win0_3.index t 0 * 1000 ≤ (i 0).val ∧ (i 0).val < win0_3.index t 0 * 1000 + 1000; rw [e0]; show (i 0).val / 1000 * 1000 ≤ (i 0).val ∧ (i 0).val < (i 0).val / 1000 * 1000 + 1000; omega
  | ⟨1, _⟩ => show win0_3.index t 1 * 256 ≤ (i 1).val ∧ (i 1).val < win0_3.index t 1 * 256 + 256; rw [e1]; omega

theorem cover4 (i : S10000x256.Idx) : ∃ t : Fin cfg0.N, (cfg0.win 4).flush t = true ∧ i ∈ ((cfg0.win 4).blk t).view.set := by
  have hi0 : (i 0).val < 10000 := (i 0).isLt
  have hi1 : (i 1).val < 256 := (i 1).isLt
  have hN : cfg0.N = 10 := N_0
  let t : Fin cfg0.N := ⟨(i 0).val / 1000, by rw [hN]; omega⟩
  obtain ⟨-, -, -, -, -, -, -, -, e0, e1⟩ := idx_facts t
  refine ⟨t, flush0_4 t, ?_⟩
  rw [mem_blk4]
  intro a
  match a with
  | ⟨0, _⟩ => show win0_4.index t 0 * 1000 ≤ (i 0).val ∧ (i 0).val < win0_4.index t 0 * 1000 + 1000; rw [e0]; show (i 0).val / 1000 * 1000 ≤ (i 0).val ∧ (i 0).val < (i 0).val / 1000 * 1000 + 1000; omega
  | ⟨1, _⟩ => show win0_4.index t 1 * 256 ≤ (i 1).val ∧ (i 1).val < win0_4.index t 1 * 256 + 256; rw [e1]; omega

include hprojA in
/-- The first output array after the region: the product of the row array with the first weight. -/
theorem arrP (c : Dev nD) : (dat0 V c).arrAt 3 cfg0.N = prodArr (V c main_arg0) (V c main_v5) :=
  (dat0 V c).arrAt_eq_of_cover 3 (prodArr (V c main_arg0) (V c main_v5)) (fun t _ => flushedP V hprojA c t) cover3

include hprojB in
/-- The second output array after the region: the product of the row array with the second weight. -/
theorem arrQ (c : Dev nD) : (dat0 V c).arrAt 4 cfg0.N = prodArr (V c main_arg0) (V c main_v7) :=
  (dat0 V c).arrAt_eq_of_cover 4 (prodArr (V c main_arg0) (V c main_v7)) (fun t _ => flushedQ V hprojB c t) cover4

end Flushed

end Cert.KernelIdeal.Reg0

end
-- ==== Proof.Spec.lean ====
/-
  What both programs compute, entry by entry, on the extended reals.

  A graph layer on N = 10000 nodes with D = 256 features and E = 320000 edges (row e → col e):

    message   m(e, ·) = max ( [x(r e, ·) | x(c e, ·)] · W_msg + b_msg , 0 )        r e, c e the edge's end rows
    aggregate a(i, ·) = Σ over the edges e that land on node i of m(e, ·)
    update    h(i, ·) = max ( [x(i, ·) | a(i, ·)] · W_upd + b_upd , 0 )
    output    y(i, ·) = (h(i, ·) - μ_i) · rsqrt (σ²_i + ε) · γ + β                  μ_i, σ²_i the row's mean and variance

  A product of two operands laid side by side with a 512-row matrix is the sum of the left operand's product with
  the matrix's upper 256 rows and the right operand's product with its lower 256 rows: `pre` states the layer in that
  split form, and `sum_halves` is the law that a sum over 512 indices is the sum over the first 256 plus the sum
  over the last 256. The law holds in every additive commutative monoid, so on the extended reals it needs no
  finiteness of the summands.
-/
import Idealize.ShloMosaic.PureOps.Ideal
import Idealize.ShloMosaic.Lib.ValueIdx

noncomputable section

open scoped BigOperators

namespace Cert.Spec

open Idealize.ShloMosaic Idealize.ShloMosaic.ValueIdx

/-- Row `k` of the upper half of a 512-row matrix. -/
def lo (k : Fin 256) : Fin 512 := ⟨k.val, by omega⟩
/-- Row `k` of the lower half of a 512-row matrix: row `256 + k`. -/
def hi (k : Fin 256) : Fin 512 := ⟨256 + k.val, by omega⟩

@[simp] theorem lo_val (k : Fin 256) : (lo k).val = k.val := rfl
@[simp] theorem hi_val (k : Fin 256) : (hi k).val = 256 + k.val := rfl

/-- A sum over 512 indices is the sum over the first 256 plus the sum over the last 256 (any additive
    commutative monoid: no finiteness is asked of the summands). -/
theorem sum_halves {M : Type} [AddCommMonoid M] (f : Fin 512 → M) :
    ∑ k : Fin 512, f k = ∑ k : Fin 256, f (lo k) + ∑ k : Fin 256, f (hi k) := by
  have h := Fin.sum_univ_add (a := 256) (b := 256) (fun k : Fin (256 + 256) => f ⟨k.val, by omega⟩)
  have e : ∑ k : Fin 512, f k = ∑ k : Fin (256 + 256), f ⟨k.val, by omega⟩ := rfl
  rw [e, h]
  rfl

/-- The pre-activation of a dense layer on two operands laid side by side, entry `(p, q)`:
    `A(p, ·) · Wa(·, q) + B(p, ·) · Wb(·, q) + b(q)`, the left operand against the matrix's upper rows `Wa`, the right
    against its lower rows `Wb`. -/
def pre {a : ℕ} (A B : Fin a → Fin 256 → EReal) (Wa Wb : Fin 256 → Fin 256 → EReal) (b : Fin 256 → EReal)
    (p : Fin a) (q : Fin 256) : EReal :=
  (∑ k : Fin 256, A p k * Wa k q + ∑ k : Fin 256, B p k * Wb k q) + b q

/-- The value the zero word of f32 denotes. -/
def zero : EReal := Ideal.ofBits .f32 0x00000000#32
/-- The value the f32 word of 256.0 denotes. -/
def width : EReal := Ideal.ofBits .f32 0x43800000#32
/-- The value the f32 word of the variance offset (the f32 nearest 1e-5) denotes. -/
def eps : EReal := Ideal.ofBits .f32 0x3727C5AC#32

/-- The rectified layer, entry `(p, q)`. -/
def act {a : ℕ} (A B : Fin a → Fin 256 → EReal) (Wa Wb : Fin 256 → Fin 256 → EReal) (b : Fin 256 → EReal)
    (p : Fin a) (q : Fin 256) : EReal :=
  max (pre A B Wa Wb b p q) zero

/-- A row's mean: its sum divided by 256. -/
def mean (h : Fin 256 → EReal) : EReal := Ideal.div (∑ k : Fin 256, h k) width
/-- A row's variance: the mean of the squared deviations from its mean. -/
def var (h : Fin 256 → EReal) : EReal := Ideal.div (∑ k : Fin 256, (h k - mean h) * (h k - mean h)) width
/-- A row normalized, scaled and shifted, entry `q`: `(h q - μ) · rsqrt (σ² + ε) · γ q + β q`. -/
def ln (h g b : Fin 256 → EReal) (q : Fin 256) : EReal :=
  (h q - mean h) * Ideal.rsqrt (var h + eps) * g q + b q

/-- The layer's output, entry `(p, q)`: the rectified update row `p`, normalized. -/
def out {a : ℕ} (A B : Fin a → Fin 256 → EReal) (Wa Wb : Fin 256 → Fin 256 → EReal) (b g be : Fin 256 → EReal)
    (p : Fin a) (q : Fin 256) : EReal :=
  ln (fun q' => act A B Wa Wb b p q') g be q

/-- An entry of the layer's output depends on the operands through row `p` only: two pairs of operands, of any
    heights, that agree along the rows `p` and `p'` give the same entry there. (A block of rows of the operands and the
    whole operands therefore give one output row.) -/
theorem out_row {a a' : ℕ} (A B : Fin a → Fin 256 → EReal) (A' B' : Fin a' → Fin 256 → EReal)
    (Wa Wb : Fin 256 → Fin 256 → EReal) (b g be : Fin 256 → EReal) (p : Fin a) (p' : Fin a')
    (hA : ∀ k, A p k = A' p' k) (hB : ∀ k, B p k = B' p' k) (q : Fin 256) :
    out A B Wa Wb b g be p q = out A' B' Wa Wb b g be p' q := by
  unfold out act pre
  simp only [hA, hB]

end Cert.Spec

end
-- ==== Proof.Reg1.lean ====
/-
  The update kernel's region: its output array as a whole-array function of the contents the region is entered with.

  The grid has 10 points. At point `t` the two row windows (the node features and the aggregated messages, both
  [10000,256]) hold rows `1000 t … 1000 t + 999`; the two [256,256] weight windows and the three [1,256] rows (bias,
  scale, shift) hold their whole arrays at every point; the output window writes rows `1000 t …` back. The tile
  computes, in row `p` and column `q`, the layer's output entry of the block's rows — that reading of the tile is a
  hypothesis here, proved beside the other tile readings. An output entry depends on the operands through its own row
  only, so what point `t` writes back is rows `1000 t …` of the layer's output on the whole arrays, and the ten row
  blocks cover the array.
-/
import proofs.«159374_j48120813584763_2_alg».proof.Proof.Gen.KernelIdeal.Frame
import proofs.«159374_j48120813584763_2_alg».proof.Proof.Spec
import Idealize.ShloMosaic.Lib.Pipeline.Value
import Idealize.ShloMosaic.Lib.ValueIdx

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's output on whole arrays, entry by entry: node features `X`, aggregated messages `A`, the two halves
    `Wa`, `Wb` of the update matrix, and the bias, scale and shift as one-row matrices. -/
def outArr (X A : S10000x256.Idx → EReal) (Wa Wb : S256x256.Idx → EReal) (b g be : S1x256.Idx → EReal) :
    S10000x256.Idx → EReal :=
  fun i => Cert.Spec.out (fun p k => X (ix2 p k)) (fun p k => A (ix2 p k)) (fun k q => Wa (ix2 k q)) (fun k q => Wb (ix2 k q))
    (fun q => b (ix2 (0 : Fin 1) q)) (fun q => g (ix2 (0 : Fin 1) q)) (fun q => be (ix2 (0 : Fin 1) q)) (i 0) (i 1)

/-- The printed index maps, decided over the grid: the row windows (inputs 0 and 1, output 7) sit at block `(t, 0)`,
    the weight windows and the one-row windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the feature block at point `t` is row `1000 t + p` of the feature array. -/
theorem x_blk (c : Dev nD) (t : Fin cfg1.N) (p : Fin 1000) (k : Fin 256) (r : Fin 10000) (hr : r.val = 1000 * t.val + p.val) :
    (iblk1 V c 0 t : Vec Ideal S1000x256 .f32) (ix2 p k) = (V c main_arg0 : S10000x256.Idx → EReal) (ix2 r k) := by
  have e0 : win1_0.index t (0 : Fin 2) = t.val := (idx_facts t).1
  have e1 : win1_0.index t (1 : Fin 2) = 0 := (idx_facts t).2.1
  unfold iblk1
  rw [View.read_apply]
  show V c main_arg0 _ = V c main_arg0 _
  congr 1
  funext a
  apply Fin.ext
  match a with
  | ⟨0, _⟩ => show win1_0.index t 0 * 1000 + 1 * p.val = r.val; rw [e0, hr]; omega
  | ⟨1, _⟩ => show win1_0.index t 1 * 256 + 1 * k.val = k.val; rw [e1]; omega

/-- Row `p` of the aggregate block at point `t` is row `1000 t + p` of the aggregate array. -/
theorem a_blk (c : Dev nD) (t : Fin cfg1.N) (p : Fin 1000) (k : Fin 256) (r : Fin 10000) (hr : r.val = 1000 * t.val + p.val) :
    (iblk1 V c 1 t : Vec Ideal S1000x256 .f32) (ix2 p k) = (V c main_v30 : S10000x256.Idx → EReal) (ix2 r k) := by
  have e0 : win1_1.index t (0 : Fin 2) = t.val := (idx_facts t).2.2.1
  have e1 : win1_1.index t (1 : Fin 2) = 0 := (idx_facts t).2.2.2.1
  unfold iblk1
  rw [View.read_apply]
  show V c main_v30 _ = V c main_v30 _
  congr 1
  funext a
  apply Fin.ext
  match a with
  | ⟨0, _⟩ => show win1_1.index t 0 * 1000 + 1 * p.val = r.val; rw [e0, hr]; omega
  | ⟨1, _⟩ => show win1_1.index t 1 * 256 + 1 * k.val = k.val; rw [e1]; omega

/-- The first weight window's block is its whole array at every point. -/
theorem wa_blk (c : Dev nD) (t : Fin cfg1.N) (k : Fin 256) (q : Fin 256) :
    (iblk1 V c 2 t : Vec Ideal S256x256 .bf16) (ix2 k q) = (V c main_v32 : S256x256.Idx → EReal) (ix2 k q) := by
  have e0 : win1_2.index t (0 : Fin 2) = 0 := (idx_facts t).2.2.2.2.1
  have e1 : win1_2.index t (1 : Fin 2) = 0 := (idx_facts t).2.2.2.2.2.1
  unfold iblk1
  rw [View.read_apply]
  show V c main_v32 _ = V c main_v32 _
  congr 1
  funext a
  apply Fin.ext
  match a with
  | ⟨0, _⟩ => show win1_2.index t 0 * 256 + 1 * k.val = k.val; rw [e0]; omega
  | ⟨1, _⟩ => show win1_2.index t 1 * 256 + 1 * q.val = q.val; rw [e1]; omega

/-- The second weight window's block is its whole array at every point. -/
theorem wb_blk (c : Dev nD) (t : Fin cfg1.N) (k : Fin 256) (q : Fin 256) :
    (iblk1 V c 3 t : Vec Ideal S256x256 .bf16) (ix2 k q) = (V c main_v34 : S256x256.Idx → EReal) (ix2 k q) := by
  have e0 : win1_3.index t (0 : Fin 2) = 0 := (idx_facts t).2.2.2.2.2.2.1
  have e1 : win1_3.index t (1 : Fin 2) = 0 := (idx_facts t).2.2.2.2.2.2.2.1
  unfold iblk1
  rw [View.read_apply]
  show V c main_v34 _ = V c main_v34 _
  congr 1
  funext a
  apply Fin.ext
  match a with
  | ⟨0, _⟩ => show win1_3.index t 0 * 256 + 1 * k.val = k.val; rw [e0]; omega
  | ⟨1, _⟩ => show win1_3.index t 1 * 256 + 1 * q.val = q.val; rw [e1]; omega

/-- The bias row's block is the whole row at every point. -/
theorem b_blk (c : Dev nD) (t : Fin cfg1.N) (k : Fin 1) (q : Fin 256) :
    (iblk1 V c 4 t : Vec Ideal S1x256 .f32) (ix2 k q) = (V c main_v35 : S1x256.Idx → EReal) (ix2 k q) := by
  have e0 : win1_4.index t (0 : Fin 2) = 0 := (idx_facts t).2.2.2.2.2.2.2.2.1
  have e1 : win1_4.index t (1 : Fin 2) = 0 := (idx_facts t).2.2.2.2.2.2.2.2.2.1
  unfold iblk1
  rw [View.read_apply]
  show V c main_v35 _ = V c main_v35 _
  congr 1
  funext a
  apply Fin.ext
  match a with
  | ⟨0, _⟩ => show win1_4.index t 0 * 1 + 1 * k.val = k.val; rw [e0]; omega
  | ⟨1, _⟩ => show win1_4.index t 1 * 256 + 1 * q.val = q.val; rw [e1]; omega

/-- The scale row's block is the whole row at every point. -/
theorem g_blk (c : Dev nD) (t : Fin cfg1.N) (k : Fin 1) (q : Fin 256) :
    (iblk1 V c 5 t : Vec Ideal S1x256 .f32) (ix2 k q) = (V c main_v36 : S1x256.Idx → EReal) (ix2 k q) := by
  have e0 : win1_5.index t (0 : Fin 2) = 0 := (idx_facts t).2.2.2.2.2.2.2.2.2.2.1
  have e1 : win1_5.index t (1 : Fin 2) = 0 := (idx_facts t).2.2.2.2.2.2.2.2.2.2.2.1
  unfold iblk1
  rw [View.read_apply]
  show V c main_v36 _ = V c main_v36 _
  congr 1
  funext a
  apply Fin.ext
  match a with
  | ⟨0, _⟩ => show win1_5.index t 0 * 1 + 1 * k.val = k.val; rw [e0]; omega
  | ⟨1, _⟩ => show win1_5.index t 1 * 256 + 1 * q.val = q.val; rw [e1]; omega

/-- The shift row's block is the whole row at every point. -/
theorem be_blk (c : Dev nD) (t : Fin cfg1.N) (k : Fin 1) (q : Fin 256) :
    (iblk1 V c 6 t : Vec Ideal S1x256 .f32) (ix2 k q) = (V c main_v37 : S1x256.Idx → EReal) (ix2 k q) := by
  have e0 : win1_6.index t (0 : Fin 2) = 0 := (idx_facts t).2.2.2.2.2.2.2.2.2.2.2.2.1
  have e1 : win1_6.index t (1 : Fin 2) = 0 := (idx_facts t).2.2.2.2.2.2.2.2.2.2.2.2.2.1
  unfold iblk1
  rw [View.read_apply]
  show V c main_v37 _ = V c main_v37 _
  congr 1
  funext a
  apply Fin.ext
  match a with
  | ⟨0, _⟩ => show win1_6.index t 0 * 1 + 1 * k.val = k.val; rw [e0]; omega
  | ⟨1, _⟩ => show win1_6.index t 1 * 256 + 1 * q.val = q.val; rw [e1]; omega

/-- Row `p` of the output block at point `t` is row `1000 t + p` of the output array. -/
theorem out_emb (t : Fin cfg1.N) (p : Fin 1000) (q : Fin 256) :
    ((((cfg1.win 7).blk t).view.emb (ix2 p q) : S10000x256.Idx) 0).val = 1000 * t.val + p.val
    ∧ ((((cfg1.win 7).blk t).view.emb (ix2 p q) : S10000x256.Idx) 1).val = q.val := by
  have e0 : win1_7.index t (0 : Fin 2) = t.val := (idx_facts t).2.2.2.2.2.2.2.2.2.2.2.2.2.2.1
  have e1 : win1_7.index t (1 : Fin 2) = 0 := (idx_facts t).2.2.2.2.2.2.2.2.2.2.2.2.2.2.2
  constructor
  · show win1_7.index t 0 * 1000 + 1 * p.val = _; rw [e0]; omega
  · show win1_7.index t 1 * 256 + 1 * q.val = _; rw [e1]; omega

section Flushed

-- The tile's reading (proved with the other tile readings): in row p, column q the tile's result is the layer's
-- output entry (p,q) of the blocks.
variable (hupd : ∀ (v0 v2 : Vec Ideal S1000x256 .f32) (v5 v8 : Vec Ideal S256x256 .bf16) (v12 v36 v40 : Vec Ideal S1x256 .f32)
    (p : Fin 1000) (q : Fin 256),
    k1_pay1 (F := Ideal) (k1_pay2 (F := Ideal) v0 v2 v5 v8 v12) (k1_pay3 (F := Ideal) v36) v40 (ix2 p q)
      = Cert.Spec.out (fun p k => v0 (ix2 p k)) (fun p k => v2 (ix2 p k)) (fun k q => v5 (ix2 k q)) (fun k q => v8 (ix2 k q))
          (fun q => v12 (ix2 (0 : Fin 1) q)) (fun q => v36 (ix2 (0 : Fin 1) q)) (fun q => v40 (ix2 (0 : Fin 1) q)) p q)

include hupd in
/-- What point `t` writes back is rows `1000 t …` of the layer's output on the whole arrays. -/
theorem flushedOut (c : Dev nD) (t : Fin cfg1.N) :
    (dat1 V c).flushed 7 t = ((cfg1.win 7).blk t).view.read (Elt Ideal)
      (outArr (V c main_arg0) (V c main_v30) (V c main_v32) (V c main_v34) (V c main_v35) (V c main_v36) (V c main_v37)) := by
  show (cfg1.win 7).cut (grid1.coords t) ((dat1 V c).after 7 t) = _
  rw [after1_7]
  unfold out1_7
  rw [View.canon_unit_zero hz]
  simp only [View.ld_unit_zero (S := S1000x256) hz, View.ld_unit_zero (S := S256x256) hz, View.ld_unit_zero (S := S1x256) hz]
  funext j
  obtain ⟨p, q, rfl⟩ : ∃ (p : Fin 1000) (q : Fin 256), j = ix2 p q := ⟨j 0, j 1, eq_ix2 j⟩
  obtain ⟨h0, h1⟩ := out_emb t p q
  refine (hupd (iblk1 V c 0 t) (iblk1 V c 1 t) (iblk1 V c 2 t) (iblk1 V c 3 t) (iblk1 V c 4 t) (iblk1 V c 5 t) (iblk1 V c 6 t) p q).trans ?_
  rw [View.read_apply]
  unfold outArr
  have hq : ((((cfg1.win 7).blk t).view.emb (ix2 p q) : S10000x256.Idx) 1) = q := Fin.ext h1
  rw [hq]
  simp only [wa_blk V c t, wb_blk V c t, b_blk V c t, g_blk V c t, be_blk V c t]
  exact Cert.Spec.out_row _ _ _ _ _ _ _ _ _ p _ (fun k => x_blk V c t p k _ h0) (fun k => a_blk V c t p k _ h0) q

/-- An index of the output array is in point `t`'s block iff its row is among rows `1000 t … 1000 t + 999`. -/
theorem mem_blk7 (t : Fin cfg1.N) (i : S10000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v38).slice (win1_7.rect t)).set ↔ _
  rw [View.set_slice_whole, Rect.mem_set_unit]
  exact Iff.rfl

/-- The ten row blocks cover the output array: row `r` is in the block of point `r / 1000`. -/
theorem cover7 (i : S10000x256.Idx) : ∃ t : Fin cfg1.N, (cfg1.win 7).flush t = true ∧ i ∈ ((cfg1.win 7).blk t).view.set := by
  have hi0 : (i 0).val < 10000 := (i 0).isLt
  have hi1 : (i 1).val < 256 := (i 1).isLt
  have hN : cfg1.N = 10 := N_1
  let t : Fin cfg1.N := ⟨(i 0).val / 1000, by rw [hN]; omega⟩
  have e0 : win1_7.index t (0 : Fin 2) = t.val := (idx_facts t).2.2.2.2.2.2.2.2.2.2.2.2.2.2.1
  have e1 : win1_7.index t (1 : Fin 2) = 0 := (idx_facts t).2.2.2.2.2.2.2.2.2.2.2.2.2.2.2
  refine ⟨t, flush1_7 t, ?_⟩
  rw [mem_blk7]
  intro a
  match a with
  | ⟨0, _⟩ => show win1_7.index t 0 * 1000 ≤ (i 0).val ∧ (i 0).val < win1_7.index t 0 * 1000 + 1000; rw [e0]; show (i 0).val / 1000 * 1000 ≤ (i 0).val ∧ (i 0).val < (i 0).val / 1000 * 1000 + 1000; omega
  | ⟨1, _⟩ => show win1_7.index t 1 * 256 ≤ (i 1).val ∧ (i 1).val < win1_7.index t 1 * 256 + 256; rw [e1]; omega

include hupd in
/-- The output array after the region: the layer's output on the whole arrays the region was entered with. -/
theorem arrOut (c : Dev nD) : (dat1 V c).arrAt 7 cfg1.N
    = outArr (V c main_arg0) (V c main_v30) (V c main_v32) (V c main_v34) (V c main_v35) (V c main_v36) (V c main_v37) :=
  (dat1 V c).arrAt_eq_of_cover 7 _ (fun t _ => flushedOut V hupd c t) cover7

end Flushed

end Cert.KernelIdeal.Reg1

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«159374_j48120813584763_2_alg».proof.Proof.LibMatmulPlain
import proofs.«159374_j48120813584763_2_alg».proof.Proof.LibDotsNT
import proofs.«159374_j48120813584763_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.TileSide.lean ====
/-
  The tile arithmetic of the two kernels, read at an entry, on the extended reals.

  The first kernel forms two projections of a block of 1000 rows: each is a product of the block with a 256 x 256
  matrix into a zero accumulator, and its entry (p, q) is the sum over k of block(p, k) * matrix(k, q); rounding the
  operands to bfloat16 and casting a shape to itself change nothing on the extended reals.

  The second kernel forms, on a block of 1000 rows, the update layer: the sum of two such products plus a bias row,
  rectified against zero, and then each row normalized: its mean is the row sum divided by 256, its variance the mean of
  the squared deviations, and the entry is (h - mean) * rsqrt (variance + offset) * scale + shift. The means, variances
  and reciprocal roots are formed on a column of 1000 entries and only then spread over the 256 columns, so they are read
  at the column entry (p, 0).

  Between the kernels the host reads, for each edge, one row of each projection through the edge's two end indices, adds
  them, and adds the bias row.
-/
import proofs.«159374_j48120813584763_2_alg».proof.Proof.Gen.KernelIdeal.Skeleton
import proofs.«159374_j48120813584763_2_alg».proof.Proof.Spec
import proofs.«159374_j48120813584763_2_alg».proof.Proof.LibMatmulPlain
import proofs.«159374_j48120813584763_2_alg».proof.Proof.LibKeepdims
import proofs.«159374_j48120813584763_2_alg».proof.Proof.LibDenseLayer
import proofs.«159374_j48120813584763_2_alg».proof.Proof.LibAggRows

noncomputable section

open scoped BigOperators

namespace Cert.TileSide

open Idealize.ShloMosaic Idealize.ShloMosaic.ValueIdx Cert.KernelIdeal Cert.KernelIdeal.Gen

/-! ## Products -/

/-- A block times a matrix cast to its own shape, into the zero accumulator, at entry (p, q): the sum over k of
    block(p, k) * matrix(k, q). -/
theorem proj_entry (x : FVec Ideal S1000x256 .bf16) (w : Vec Ideal S256x256 .bf16) (p : Fin 1000) (q : Fin 256) :
    matmul (F := Ideal) dot_S1000x256_S256x256_S1000x256_1_0_0_1_n_n none x
        (shapeCast S256x256 w shapeCasts_S256x256_S256x256 : FVec Ideal S256x256 .bf16)
        (constant (F := Ideal) S1000x256 .f32 0x00000000#32) (ix2 p q)
      = ∑ k : Fin 256, x (ix2 p k) * w (ix2 k q) := by
  rw [shapeCast_self]
  exact Cert.LibMatmulPlain.matmul_zero_apply dot_S1000x256_S256x256_S1000x256_1_0_0_1_n_n rfl rfl rfl rfl rfl rfl none
    x w p q

/-- The first projection of the first kernel, at an entry. Rounding the block to bfloat16 changes no extended real. -/
theorem proj_a (v0 : Vec Ideal S1000x256 .f32) (v2 : Vec Ideal S256x256 .bf16) (p : Fin 1000) (q : Fin 256) :
    k0_pay2 (F := Ideal) v0 v2 (ix2 p q) = ∑ k : Fin 256, v0 (ix2 p k) * v2 (ix2 k q) :=
  proj_entry (truncf .bf16 v0 bitsLt_bf16_f32) v2 p q

/-- The second projection of the first kernel, at an entry. -/
theorem proj_b (v0 : Vec Ideal S1000x256 .f32) (v6 : Vec Ideal S256x256 .bf16) (p : Fin 1000) (q : Fin 256) :
    k0_pay3 (F := Ideal) v0 v6 (ix2 p q) = ∑ k : Fin 256, v0 (ix2 p k) * v6 (ix2 k q) :=
  proj_entry (truncf .bf16 v0 bitsLt_bf16_f32) v6 p q

/-! ## The second kernel's block arithmetic, stage by stage -/

/-- The rectified update layer on a block: the two products, added, plus the bias row spread over the rows, and the
    larger of that and zero. -/
def rect (x y : Vec Ideal S1000x256 .f32) (wa wb : Vec Ideal S256x256 .bf16) (b : Vec Ideal S1x256 .f32) :
    FVec Ideal S1000x256 .f32 :=
  maximumf
    (addf
      (addf
        (matmul (F := Ideal) dot_S1000x256_S256x256_S1000x256_1_0_0_1_n_n none
          (truncf .bf16 x bitsLt_bf16_f32 : FVec Ideal S1000x256 .bf16)
          (shapeCast S256x256 wa shapeCasts_S256x256_S256x256 : FVec Ideal S256x256 .bf16)
          (constant (F := Ideal) S1000x256 .f32 0x00000000#32))
        (matmul (F := Ideal) dot_S1000x256_S256x256_S1000x256_1_0_0_1_n_n none
          (truncf .bf16 (shapeCast S1000x256 y shapeCasts_S1000x256_S1000x256 : FVec Ideal S1000x256 .f32) bitsLt_bf16_f32 :
            FVec Ideal S1000x256 .bf16)
          (shapeCast S256x256 wb shapeCasts_S256x256_S256x256 : FVec Ideal S256x256 .bf16)
          (constant (F := Ideal) S1000x256 .f32 0x00000000#32)))
      (broadcastTo S1000x256 (shapeCast S1x256 b shapeCasts_S1x256_S1x256 : FVec Ideal S1x256 .f32) broadcasts_S1x256_S1000x256))
    (broadcast S1000x256 (Scalar.ofBits (F := Ideal) .f32 0x00000000#32))

/-- The column of row means of a block: the row sums, kept as a column, each divided by 256. -/
def meanCol (h : FVec Ideal S1000x256 .f32) : FVec Ideal S1000x1 .f32 :=
  divf
    (shapeCast S1000x1 (multiReduction (F := Ideal) .add [1] S1000 h 0x00000000#32 reduces_S1000x256_S1000 (.inl rfl) rfl)
      shapeCasts_S1000_S1000x1)
    (broadcast S1000x1 (Scalar.ofBits (F := Ideal) .f32 0x43800000#32))

/-- The block with each row's mean taken off. -/
def dev (h : FVec Ideal S1000x256 .f32) : FVec Ideal S1000x256 .f32 :=
  subf h (broadcastTo S1000x256 (meanCol h) broadcasts_S1000x1_S1000x256)

/-- The block normalized row by row: the deviations times the reciprocal root of the row's variance plus the offset,
    the variance being the mean of the squared deviations. -/
def normed (h : FVec Ideal S1000x256 .f32) : FVec Ideal S1000x256 .f32 :=
  mulf (dev h)
    (broadcastTo S1000x256
      (rsqrt (addf (meanCol (mulf (dev h) (dev h))) (broadcast S1000x1 (Scalar.ofBits (F := Ideal) .f32 0x3727C5AC#32))))
      broadcasts_S1000x1_S1000x256)

/-- The second kernel's normalized block is these stages composed. -/
theorem k1_pay2_eq (v0 v2 : Vec Ideal S1000x256 .f32) (v5 v8 : Vec Ideal S256x256 .bf16) (v12 : Vec Ideal S1x256 .f32) :
    k1_pay2 (F := Ideal) v0 v2 v5 v8 v12 = normed (rect v0 v2 v5 v8 v12) := rfl

/-! ## The stages read at an entry -/

/-- The rectified update layer at entry (p, q): the larger of the pre-activation and zero. -/
theorem rect_apply (x y : Vec Ideal S1000x256 .f32) (wa wb : Vec Ideal S256x256 .bf16) (b : Vec Ideal S1x256 .f32)
    (p : Fin 1000) (q : Fin 256) :
    rect x y wa wb b (ix2 p q)
      = Cert.Spec.act (fun p k => x (ix2 p k)) (fun p k => y (ix2 p k)) (fun k q => wa (ix2 k q)) (fun k q => wb (ix2 k q))
          (fun q => b (ix2 (0 : Fin 1) q)) p q := by
  unfold rect
  rw [shapeCast_self y]
  rw [maximumf_apply, Cert.Dense.tile_biased, addf_apply, proj_entry, proj_entry]
  rfl

/-- The column of means at row p: the mean of row p. -/
theorem meanCol_apply (h : FVec Ideal S1000x256 .f32) (p : Fin 1000) (u : Fin 1) :
    meanCol h (ix2 p u) = Cert.Spec.mean (fun k => h (ix2 p k)) := by
  unfold meanCol
  rw [divf_apply, Cert.LibKeepdims.shapeCast_a_a1_apply, Cert.LibKeepdims.rowSum_apply]
  rfl

/-- The deviations at entry (p, q): the entry less the mean of row p. -/
theorem dev_apply (h : FVec Ideal S1000x256 .f32) (p : Fin 1000) (q : Fin 256) :
    dev h (ix2 p q) = h (ix2 p q) - Cert.Spec.mean (fun k => h (ix2 p k)) := by
  unfold dev
  rw [subf_apply, Cert.LibKeepdims.broadcastTo_a1_ab_apply, meanCol_apply]

/-- The column of means of the squared deviations at row p: the variance of row p. -/
theorem varCol_apply (h : FVec Ideal S1000x256 .f32) (p : Fin 1000) (u : Fin 1) :
    meanCol (mulf (dev h) (dev h)) (ix2 p u) = Cert.Spec.var (fun k => h (ix2 p k)) := by
  rw [meanCol_apply]
  have hk : (fun k : Fin 256 => mulf (dev h) (dev h) (ix2 p k))
      = fun k => (h (ix2 p k) - Cert.Spec.mean (fun k => h (ix2 p k))) * (h (ix2 p k) - Cert.Spec.mean (fun k => h (ix2 p k))) :=
    funext fun k => by rw [mulf_apply, dev_apply]
  rw [hk]
  rfl

/-- The normalized block at entry (p, q). -/
theorem normed_apply (h : FVec Ideal S1000x256 .f32) (p : Fin 1000) (q : Fin 256) :
    normed h (ix2 p q)
      = (h (ix2 p q) - Cert.Spec.mean (fun k => h (ix2 p k)))
          * Ideal.rsqrt (Cert.Spec.var (fun k => h (ix2 p k)) + Cert.Spec.eps) := by
  unfold normed
  rw [mulf_apply, dev_apply, Cert.LibKeepdims.broadcastTo_a1_ab_apply]
  show _ * Ideal.rsqrt (meanCol (mulf (dev h) (dev h)) (ix2 p (0 : Fin 1)) + Cert.Spec.eps) = _
  rw [varCol_apply]

/-- The last step of the second kernel: a block times the scale row plus the shift row, both rows spread over the
    block's rows. -/
theorem k1_pay1_eq (X : FVec Ideal S1000x256 .f32) (v36 v40 : Vec Ideal S1x256 .f32) :
    k1_pay1 (F := Ideal) X (k1_pay3 (F := Ideal) v36) v40
      = addf (mulf X (broadcastTo S1000x256 (shapeCast S1x256 v36 shapeCasts_S1x256_S1x256 : FVec Ideal S1x256 .f32) broadcasts_S1x256_S1000x256))
          (broadcastTo S1000x256 (shapeCast S1x256 v40 shapeCasts_S1x256_S1x256 : FVec Ideal S1x256 .f32) broadcasts_S1x256_S1000x256) := rfl

theorem scale_shift_apply (X : FVec Ideal S1000x256 .f32) (v36 v40 : Vec Ideal S1x256 .f32) (p : Fin 1000) (q : Fin 256) :
    k1_pay1 (F := Ideal) X (k1_pay3 (F := Ideal) v36) v40 (ix2 p q)
      = X (ix2 p q) * v36 (ix2 (0 : Fin 1) q) + v40 (ix2 (0 : Fin 1) q) := by
  rw [k1_pay1_eq, Cert.Dense.tile_biased, mulf_apply, Cert.LibKeepdims.row_spread_apply]

/-- The second kernel's block at entry (p, q): the layer's output. -/
theorem upd_tile (v0 v2 : Vec Ideal S1000x256 .f32) (v5 v8 : Vec Ideal S256x256 .bf16) (v12 v36 v40 : Vec Ideal S1x256 .f32)
    (p : Fin 1000) (q : Fin 256) :
    k1_pay1 (F := Ideal) (k1_pay2 (F := Ideal) v0 v2 v5 v8 v12) (k1_pay3 (F := Ideal) v36) v40 (ix2 p q)
      = Cert.Spec.out (fun p k => v0 (ix2 p k)) (fun p k => v2 (ix2 p k)) (fun k q => v5 (ix2 k q)) (fun k q => v8 (ix2 k q))
          (fun q => v12 (ix2 (0 : Fin 1) q)) (fun q => v36 (ix2 (0 : Fin 1) q)) (fun q => v40 (ix2 (0 : Fin 1) q)) p q := by
  rw [k1_pay2_eq, scale_shift_apply, normed_apply]
  have hrow : (fun k : Fin 256 => rect v0 v2 v5 v8 v12 (ix2 p k))
      = fun q' => Cert.Spec.act (fun p k => v0 (ix2 p k)) (fun p k => v2 (ix2 p k)) (fun k q => v5 (ix2 k q))
          (fun k q => v8 (ix2 k q)) (fun q => v12 (ix2 (0 : Fin 1) q)) p q' :=
    funext fun k => rect_apply v0 v2 v5 v8 v12 p k
  rw [hrow, rect_apply]
  rfl

/-! ## The host's line between the kernels -/

/-- For each edge the host reads a row of each projection through the edge's end indices, adds the two rows and adds
    the bias: entry (e, q). -/
theorem host_msg (P Q : FVec Ideal S10000x256 .f32) (gr gc : IVec S320000x1 32) (b : FVec Ideal S256 .f32)
    (e : Fin 320000) (q : Fin 256) :
    addf (addf (Host.gather gather_S10000x256_S320000x1_S320000x256_1_0_n_n_0_1_1256 P gr)
          (Host.gather gather_S10000x256_S320000x1_S320000x256_1_0_n_n_0_1_1256 Q gc))
        (broadcastInDim S320000x256 ![0, 1] bcast_S1x256_S320000x256_0_1 (shapeCast S1x256 b shapeCasts_S256_S1x256))
        (ix2 e q)
      = (P (ix2 (Cert.LibAggRows.srcRow 10000 (by decide) gr e) q) + Q (ix2 (Cert.LibAggRows.srcRow 10000 (by decide) gc e) q))
          + b (ix1 q) := by
  have hg : gather_S10000x256_S320000x1_S320000x256_1_0_n_n_0_1_1256
      = Cert.LibAggRows.rowGatherDims 10000 320000 256 gather_S10000x256_S320000x1_S320000x256_1_0_n_n_0_1_1256_wf := rfl
  rw [addf_apply, addf_apply, hg, Cert.LibAggRows.rowGather_apply (by decide), Cert.LibAggRows.rowGather_apply (by decide),
    Cert.Dense.bcast_row_apply, shapeCast_a_1a_apply]

end Cert.TileSide

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.RefSide.lean ====
/-
  The reference program read at an entry.

  The message stage: the rows of the node table named by an edge's two ends are laid side by side, multiplied by a
  512-row matrix and shifted by a bias row. A sum over the 512 joined columns is the sum over the first 256 (where
  the joined row is the left piece) plus the sum over the last 256 (where it is the right piece), so the entry is
  the split-form pre-activation of the specification, with the gathered rows written as rows of the table.

  The update stage: the node table and the aggregate are laid side by side, put through the same kind of layer and
  rectified; then each row is normalized. A sum along a row started from the zero word is the plain sum of the row;
  a value spread along a row is read at the row's one scalar; so the mean, the variance and the normalized entry
  are the specification's, over the rectified row.
-/
import proofs.«159374_j48120813584763_2_alg».proof.Proof.Gen.ReferenceIdeal.Read
import proofs.«159374_j48120813584763_2_alg».proof.Proof.Spec
import proofs.«159374_j48120813584763_2_alg».proof.Proof.LibAggRows
import proofs.«159374_j48120813584763_2_alg».proof.Proof.LibConcatCols

noncomputable section

open scoped BigOperators

namespace Cert.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- One layer on two operands laid side by side: the sum over the 512 joined columns of the joined row times the
    matrix column, plus the bias entry, is the sum of the left piece against the matrix's upper 256 rows plus the
    sum of the right piece against its lower 256 rows, plus the bias entry. -/
theorem layer_apply {a : Nat} (A B : (⟨2, ![a, 256]⟩ : Shape).Idx → EReal) (W : (⟨2, ![512, 256]⟩ : Shape).Idx → EReal)
    (b : (⟨1, ![256]⟩ : Shape).Idx → EReal)
    (h : Shape.Concatenates [(⟨2, ![a, 256]⟩ : Shape), ⟨2, ![a, 256]⟩] ⟨2, ![a, 512]⟩ 1) (p : Fin a) (q : Fin 256) :
    (∑ k : Fin 512, concatenate ⟨2, ![a, 512]⟩ 1 [⟨⟨2, ![a, 256]⟩, A⟩, ⟨⟨2, ![a, 256]⟩, B⟩] h (ix2 p k) * W (ix2 k q))
        + b (ix1 q)
      = Cert.Spec.pre (fun p k => A (ix2 p k)) (fun p k => B (ix2 p k)) (fun k q => W (ix2 (Cert.Spec.lo k) q))
          (fun k q => W (ix2 (Cert.Spec.hi k) q)) (fun q => b (ix1 q)) p q := by
  unfold Cert.Spec.pre
  rw [Cert.Spec.sum_halves]
  refine congrArg (· + b (ix1 q)) (congrArg₂ (· + ·) ?_ ?_)
  · exact Finset.sum_congr rfl fun k _ => by
      rw [Cert.LibConcatCols.cols_left A B h p (Cert.Spec.lo k) k rfl]
  · exact Finset.sum_congr rfl fun k _ => by
      rw [Cert.LibConcatCols.cols_right A B h p (Cert.Spec.hi k) k (by rw [Cert.Spec.hi_val]; omega)]

section Message

variable (x0 : (⟨S10000x256, .f32⟩ : BufTy).Contents (Elt Ideal)) (x1 : (⟨S2x320000, .i32⟩ : BufTy).Contents (Elt Ideal))
  (x2 : (⟨S512x256, .f32⟩ : BufTy).Contents (Elt Ideal)) (x3 : (⟨S256, .f32⟩ : BufTy).Contents (Elt Ideal))

/-- The rows gathered through the first column of row numbers: entry (e, k) is the table's entry in column k of the
    row the e-th number names, read signed and clamped into the table. -/
theorem v10_apply (e : Fin 320000) (k : Fin 256) :
    val_main_v10 (F := Ideal) x0 x1 (ix2 e k)
      = x0 (ix2 (Cert.LibAggRows.srcRow 10000 (by decide) (val_main_v9 (F := Ideal) x1) e) k) :=
  Cert.LibAggRows.rowGather_apply (by decide) _ x0 (val_main_v9 (F := Ideal) x1) e k

/-- The rows gathered through the second column of row numbers. -/
theorem v17_apply (e : Fin 320000) (k : Fin 256) :
    val_main_v17 (F := Ideal) x0 x1 (ix2 e k)
      = x0 (ix2 (Cert.LibAggRows.srcRow 10000 (by decide) (val_main_v16 (F := Ideal) x1) e) k) :=
  Cert.LibAggRows.rowGather_apply (by decide) _ x0 (val_main_v16 (F := Ideal) x1) e k

/-- The message pre-activation at edge e, column q. -/
theorem v22_apply (e : Fin 320000) (q : Fin 256) :
    val_main_v22 (F := Ideal) x0 x1 x2 x3 (ix2 e q)
      = Cert.Spec.pre
          (fun e k => x0 (ix2 (Cert.LibAggRows.srcRow 10000 (by decide) (val_main_v9 (F := Ideal) x1) e) k))
          (fun e k => x0 (ix2 (Cert.LibAggRows.srcRow 10000 (by decide) (val_main_v16 (F := Ideal) x1) e) k))
          (fun k q => x2 (ix2 (Cert.Spec.lo k) q)) (fun k q => x2 (ix2 (Cert.Spec.hi k) q))
          (fun q => x3 (ix1 q)) e q := by
  rw [val_main_v22_apply, val_main_v19_apply, val_main_v21_apply, val_main_v20_apply, Ideal.addf_def]
  have hl : ∀ k : Fin 512, lidx_main_v19 (ix2 e q) k = ix2 e k := fun k => by
    funext a; match a with | ⟨0, _⟩ => rfl | ⟨1, _⟩ => rfl
  have hr : ∀ k : Fin 512, ridx_main_v19 (ix2 e q) k = ix2 k q := fun k => by
    funext a; match a with | ⟨0, _⟩ => rfl | ⟨1, _⟩ => rfl
  have hb : idx_main_v20 (idx_main_v21 (ix2 e q)) = ix1 q := by
    funext a; match a with | ⟨0, _⟩ => rfl
  simp only [hl, hr, hb]
  unfold val_main_v18
  refine (layer_apply (val_main_v10 (F := Ideal) x0 x1) (val_main_v17 (F := Ideal) x0 x1) x2 x3 _ e q).trans ?_
  simp only [v10_apply, v17_apply]

end Message

section Update

variable (x0 : (⟨S10000x256, .f32⟩ : BufTy).Contents (Elt Ideal)) (x1 : (⟨S2x320000, .i32⟩ : BufTy).Contents (Elt Ideal))
  (x2 : (⟨S512x256, .f32⟩ : BufTy).Contents (Elt Ideal)) (x3 : (⟨S256, .f32⟩ : BufTy).Contents (Elt Ideal))
  (x4 : (⟨S512x256, .f32⟩ : BufTy).Contents (Elt Ideal)) (x5 x6 x7 : (⟨S256, .f32⟩ : BufTy).Contents (Elt Ideal))

/-- The rectified update at node i, column q: the layer on the node's own row beside its aggregate row, then the
    maximum with the zero word. The aggregate enters as a whole, not expanded. -/
theorem v32_apply (i : Fin 10000) (q : Fin 256) :
    val_main_v32 (F := Ideal) x0 x1 x2 x3 x4 x5 (ix2 i q)
      = Cert.Spec.act
          (fun i k => x0 (ix2 i k)) (fun i k => val_main_v26 (F := Ideal) x0 x1 x2 x3 (ix2 i k))
          (fun k q => x4 (ix2 (Cert.Spec.lo k) q)) (fun k q => x4 (ix2 (Cert.Spec.hi k) q))
          (fun q => x5 (ix1 q)) i q := by
  rw [val_main_v32_apply, val_main_v31_apply, val_main_v28_apply, val_main_v30_apply, val_main_v29_apply,
    val_main_call1_v0_apply, val_main_call1_cst_apply, Ideal.addf_def, Ideal.maximumf_def, Ideal.ofBits_def]
  have hl : ∀ k : Fin 512, lidx_main_v28 (ix2 i q) k = ix2 i k := fun k => by
    funext a; match a with | ⟨0, _⟩ => rfl | ⟨1, _⟩ => rfl
  have hr : ∀ k : Fin 512, ridx_main_v28 (ix2 i q) k = ix2 k q := fun k => by
    funext a; match a with | ⟨0, _⟩ => rfl | ⟨1, _⟩ => rfl
  have hb : idx_main_v29 (idx_main_v30 (ix2 i q)) = ix1 q := by
    funext a; match a with | ⟨0, _⟩ => rfl
  simp only [hl, hr, hb]
  unfold val_main_v27 Cert.Spec.act Cert.Spec.zero
  exact congrArg (fun s => max s (Ideal.ofBits .f32 0x00000000#32))
    (layer_apply x0 (val_main_v26 (F := Ideal) x0 x1 x2 x3) x4 x5 _ i q)

/-- The row mean, read at the row's one scalar: the row's sum from the zero word, divided by the word of 256. -/
theorem mean_apply (i : Fin 10000) :
    val_main_v36 (F := Ideal) x0 x1 x2 x3 x4 x5 (ix2 i (0 : Fin 1))
      = Cert.Spec.mean (fun k => val_main_v32 (F := Ideal) x0 x1 x2 x3 x4 x5 (ix2 i k)) := by
  rw [val_main_v36_apply, val_main_v34_apply, val_main_v33_apply, val_main_v35_apply, val_main_cst_4_apply,
    val_main_cst_3_apply]
  simp only [Ideal.hostDivf_def, Ideal.ofBits_def, Ideal.ofBits_zero_f32, zero_add]
  unfold Cert.Spec.mean Cert.Spec.width
  refine congrArg (fun s => Ideal.div s (Ideal.ofBits .f32 0x43800000#32)) (Finset.sum_congr rfl fun k _ => ?_)
  refine congrArg (val_main_v32 (F := Ideal) x0 x1 x2 x3 x4 x5) ?_
  funext a; match a with | ⟨0, _⟩ => rfl | ⟨1, _⟩ => rfl

/-- The row variance, read at the row's one scalar: the sum of the squared deviations from the row mean, from the
    zero word, divided by the word of 256. -/
theorem var_apply (i : Fin 10000) :
    val_main_v43 (F := Ideal) x0 x1 x2 x3 x4 x5 (ix2 i (0 : Fin 1))
      = Cert.Spec.var (fun k => val_main_v32 (F := Ideal) x0 x1 x2 x3 x4 x5 (ix2 i k)) := by
  rw [val_main_v43_apply, val_main_v41_apply, val_main_v40_apply, val_main_v42_apply, val_main_cst_6_apply,
    val_main_cst_5_apply]
  simp only [Ideal.hostDivf_def, Ideal.ofBits_def, Ideal.ofBits_zero_f32, zero_add]
  unfold Cert.Spec.var Cert.Spec.width
  refine congrArg (fun s => Ideal.div s (Ideal.ofBits .f32 0x43800000#32)) (Finset.sum_congr rfl fun k _ => ?_)
  have h1 : idx_main_v40 (idx_main_v41 (ix2 i (0 : Fin 1))) k = ix2 i k := by
    funext a; match a with | ⟨0, _⟩ => rfl | ⟨1, _⟩ => rfl
  have h2 : idx_main_v37 (ix2 i k) = ix2 i (0 : Fin 1) := by
    funext a; match a with | ⟨0, _⟩ => rfl | ⟨1, _⟩ => rfl
  rw [h1, val_main_v39_apply, val_main_v38_apply, val_main_v37_apply, h2, mean_apply, Ideal.mulf_def, Ideal.subf_def]

/-- The normalized, scaled and shifted entry at node i, column q, over the rectified row. -/
theorem ln_apply (i : Fin 10000) (q : Fin 256) :
    val_main_v56 (F := Ideal) x0 x1 x2 x3 x4 x5 x6 x7 (ix2 i q)
      = Cert.Spec.ln (fun k => val_main_v32 (F := Ideal) x0 x1 x2 x3 x4 x5 (ix2 i k))
          (fun q => x6 (ix1 q)) (fun q => x7 (ix1 q)) q := by
  rw [val_main_v56_apply, val_main_v53_apply, val_main_v50_apply, val_main_v45_apply, val_main_v44_apply,
    val_main_v49_apply, val_main_v48_apply, val_main_v47_apply, val_main_v46_apply, val_main_cst_7_apply,
    val_main_v52_apply, val_main_v51_apply, val_main_v55_apply, val_main_v54_apply]
  have h44 : idx_main_v44 (ix2 i q) = ix2 i (0 : Fin 1) := by
    funext a; match a with | ⟨0, _⟩ => rfl | ⟨1, _⟩ => rfl
  have h49 : idx_main_v49 (ix2 i q) = ix2 i (0 : Fin 1) := by
    funext a; match a with | ⟨0, _⟩ => rfl | ⟨1, _⟩ => rfl
  have h6 : idx_main_v51 (idx_main_v52 (ix2 i q)) = ix1 q := by
    funext a; match a with | ⟨0, _⟩ => rfl
  have h7 : idx_main_v54 (idx_main_v55 (ix2 i q)) = ix1 q := by
    funext a; match a with | ⟨0, _⟩ => rfl
  rw [h44, h49, h6, h7, mean_apply, var_apply]
  simp only [Ideal.addf_def, Ideal.mulf_def, Ideal.subf_def, Ideal.hostUnary_rsqrt_def, Ideal.ofBits_def]
  rfl

/-- The reference's output at node i, column q. -/
theorem v56_apply (i : Fin 10000) (q : Fin 256) :
    val_main_v56 (F := Ideal) x0 x1 x2 x3 x4 x5 x6 x7 (ix2 i q)
      = Cert.Spec.out
          (fun i k => x0 (ix2 i k)) (fun i k => val_main_v26 (F := Ideal) x0 x1 x2 x3 (ix2 i k))
          (fun k q => x4 (ix2 (Cert.Spec.lo k) q)) (fun k q => x4 (ix2 (Cert.Spec.hi k) q))
          (fun q => x5 (ix1 q)) (fun q => x6 (ix1 q)) (fun q => x7 (ix1 q)) i q := by
  rw [ln_apply]
  unfold Cert.Spec.out
  simp only [v32_apply]

end Update

end Cert.RefSide

end
-- ==== Proof.Bridge.lean ====
/-
  The idealized kernel program's result is the reference's, as arrays of extended reals.

  Three steps. (1) The message pre-activations agree entry by entry: the kernel program gathers rows of the two
  projections `x · W_upper` and `x · W_lower` at the edge's two end nodes and adds them, the reference multiplies
  the two gathered feature rows laid side by side with the whole matrix; a row of a product is the product of the row,
  and the sum over the 512 joined columns splits into its two halves — no finiteness is needed, only that addition of
  extended reals is commutative and associative. (2) Both programs then rectify and scatter-add with the same
  destination column into the same zero array, so the aggregates are equal as arrays, by congruence: the scatter is
  never opened. (3) The update kernel's output array is the layer's output on whole arrays; the reference's last
  stage read at an entry is the same function of the same rows, the two halves of the update matrix met by the same
  split.
-/
import proofs.«159374_j48120813584763_2_alg».proof.Proof.KRun
import proofs.«159374_j48120813584763_2_alg».proof.Proof.KHost
import proofs.«159374_j48120813584763_2_alg».proof.Proof.Reg0
import proofs.«159374_j48120813584763_2_alg».proof.Proof.Reg1
import proofs.«159374_j48120813584763_2_alg».proof.Proof.TileSide
import proofs.«159374_j48120813584763_2_alg».proof.Proof.RefSide
import proofs.«159374_j48120813584763_2_alg».proof.Proof.Spec
import proofs.«159374_j48120813584763_2_alg».proof.Proof.Gen.ReferenceIdeal.Read

set_option maxRecDepth 16384

noncomputable section

open scoped BigOperators

namespace Cert.Bridge

open Cert.KernelIdeal Cert.KernelIdeal.Gen Cert.KernelIdeal.KHost
open Idealize.ShloMosaic Idealize.ShloMosaic.TcCoe Idealize.ShloMosaic.ValueIdx Idealize.SL.Sem

/-! ## Rows of a matrix, a vector as a row -/

/-- Row `k` of the upper half is row `k` of the matrix. -/
theorem upper_apply (w : FVec Ideal S512x256 .f32) (k q : Fin 256) :
    upper w (ix2 k q) = w (ix2 (Cert.Spec.lo k) q) := by
  unfold upper
  rw [truncf_apply]
  exact extractStridedSlice_apply ![0, 0] w slices_S512x256_S256x256_0_0 (ix2 k q) (ix2 (Cert.Spec.lo k) q) (fun a => match a with
    | ⟨0, _⟩ => by show (Cert.Spec.lo k).val = 0 + k.val; rw [Cert.Spec.lo_val]; omega
    | ⟨1, _⟩ => by show q.val = 0 + q.val; omega)

/-- Row `k` of the lower half is row `256 + k` of the matrix. -/
theorem lower_apply (w : FVec Ideal S512x256 .f32) (k q : Fin 256) :
    lower w (ix2 k q) = w (ix2 (Cert.Spec.hi k) q) := by
  unfold lower
  rw [truncf_apply]
  exact extractStridedSlice_apply ![256, 0] w slices_S512x256_S256x256_256_0 (ix2 k q) (ix2 (Cert.Spec.hi k) q) (fun a => match a with
    | ⟨0, _⟩ => by show (Cert.Spec.hi k).val = 256 + k.val; rw [Cert.Spec.hi_val]
    | ⟨1, _⟩ => by show q.val = 0 + q.val; omega)

/-- A vector laid out as one row, read in that row. -/
theorem asRow_apply (v : FVec Ideal S256 .f32) (q : Fin 256) :
    asRow v (ix2 (0 : Fin 1) q) = v (ix1 q) := by
  unfold asRow
  exact shapeCast_apply v shapeCasts_S256_S1x256 (ix2 (0 : Fin 1) q) (ix1 q) (by
    rewrite [Shape.rowMajor_val_one, Shape.rowMajor_val_two]; show q.val = 0 * 256 + q.val; omega)

section Run

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)

/-! ## (1) The message pre-activations agree -/

theorem msg_eq : msgPre (Reg0.prodArr x0 (upper x2)) (Reg0.prodArr x0 (lower x2)) (rowOf0 x1) (rowOf1 x1) (asRow x3)
    = Cert.ReferenceIdeal.Read.val_main_v22 (F := Ideal) x0 x1 x2 x3 := by
  funext j
  obtain ⟨e, q, rfl⟩ : ∃ (e : Fin 320000) (q : Fin 256), j = ix2 e q := ⟨j 0, j 1, eq_ix2 j⟩
  unfold msgPre asRow
  refine (Cert.TileSide.host_msg _ _ _ _ _ e q).trans ?_
  rw [Cert.RefSide.v22_apply]
  unfold Cert.Spec.pre
  rw [Reg0.prodArr_apply, Reg0.prodArr_apply]
  simp only [upper_apply, lower_apply]
  rfl

/-! ## (2) The aggregates agree, by congruence -/

theorem agg_eq : agg (msgPre (Reg0.prodArr x0 (upper x2)) (Reg0.prodArr x0 (lower x2)) (rowOf0 x1) (rowOf1 x1) (asRow x3)) (rowOf1 x1)
    = Cert.ReferenceIdeal.Read.val_main_v26 (F := Ideal) x0 x1 x2 x3 := by
  rw [msg_eq]
  rfl

/-! ## Region 1's entry contents, as terms of the arguments -/

theorem e_P : W2 m ρ c (Proc.devRef .tc main_v8_0) = Reg0.prodArr x0 (upper x2) := by
  refine (W2_arr m ρ c 3).trans ((Reg0.arrP (V1 m ρ) Cert.TileSide.proj_a c).trans ?_)
  show Reg0.prodArr (W1 m ρ c (Proc.devRef .tc main_arg0)) (W1 m ρ c (Proc.devRef .tc main_v5)) = _
  rw [W1_arg0, W1_v5]

theorem e_Q : W2 m ρ c (Proc.devRef .tc main_v8_1) = Reg0.prodArr x0 (lower x2) := by
  refine (W2_arr m ρ c 4).trans ((Reg0.arrQ (V1 m ρ) Cert.TileSide.proj_b c).trans ?_)
  show Reg0.prodArr (W1 m ρ c (Proc.devRef .tc main_arg0)) (W1 m ρ c (Proc.devRef .tc main_v7)) = _
  rw [W1_arg0, W1_v7]

theorem e_arg0 : W5 m ρ c (Proc.devRef .tc main_arg0) = x0 :=
  (W5_arg0 m ρ c).trans ((W2_arg0 m ρ c).trans (W1_arg0 m ρ c))
theorem e_v32 : W5 m ρ c (Proc.devRef .tc main_v32) = upper x4 := by rw [W5_v32, W2_arg4, W1_arg4]
theorem e_v34 : W5 m ρ c (Proc.devRef .tc main_v34) = lower x4 := by rw [W5_v34, W2_arg4, W1_arg4]
theorem e_v35 : W5 m ρ c (Proc.devRef .tc main_v35) = asRow x5 := by rw [W5_v35, W2_arg5, W1_arg5]
theorem e_v36 : W5 m ρ c (Proc.devRef .tc main_v36) = asRow x6 := by rw [W5_v36, W2_arg6, W1_arg6]
theorem e_v37 : W5 m ρ c (Proc.devRef .tc main_v37) = asRow x7 := by rw [W5_v37, W2_arg7, W1_arg7]
theorem e_v30 : W5 m ρ c (Proc.devRef .tc main_v30) = Cert.ReferenceIdeal.Read.val_main_v26 (F := Ideal) x0 x1 x2 x3 := by
  rw [W5_v30, e_P, e_Q, W2_v1, W1_v1, W2_v3, W1_v3, W2_arg3, W1_arg3]
  exact agg_eq m c

/-! ## (3) The result arrays agree -/

/-- The update kernel's output array after the run is the reference's result term of the same arguments. -/
theorem kernel_eq : (dat1 (V5 m ρ) c).arrAt 7 cfg1.N
    = Cert.ReferenceIdeal.Read.val_main_v56 (F := Ideal) x0 x1 x2 x3 x4 x5 x6 x7 := by
  rw [Reg1.arrOut (V5 m ρ) Cert.TileSide.upd_tile c]
  show Reg1.outArr (W5 m ρ c (Proc.devRef .tc main_arg0)) (W5 m ρ c (Proc.devRef .tc main_v30)) (W5 m ρ c (Proc.devRef .tc main_v32))
      (W5 m ρ c (Proc.devRef .tc main_v34)) (W5 m ρ c (Proc.devRef .tc main_v35)) (W5 m ρ c (Proc.devRef .tc main_v36))
      (W5 m ρ c (Proc.devRef .tc main_v37)) = _
  rw [e_arg0, e_v30, e_v32, e_v34, e_v35, e_v36, e_v37]
  funext j
  obtain ⟨i, q, rfl⟩ : ∃ (i : Fin 10000) (q : Fin 256), j = ix2 i q := ⟨j 0, j 1, eq_ix2 j⟩
  rw [Cert.RefSide.v56_apply]
  unfold Reg1.outArr
  simp only [upper_apply, lower_apply, asRow_apply]

end Run

end Cert.Bridge

end
-- ==== Proof.lean ====
/-
  The certificate of a graph-convolution layer: a Pallas kernel program against its jnp reference, equal as extended
  reals.

  The layer, on N = 10000 nodes with 256 features and E = 320000 edges: a message per edge, the rectified image of
  the two end nodes' feature rows laid side by side under a [512,256] matrix plus a bias; the messages summed onto
  their destination nodes; an update per node, the rectified image of the node's features beside its aggregate under
  a second [512,256] matrix plus a bias; a row normalization with scale and shift.

  The reference does exactly that. The kernel program uses that a row of a matrix product is the product of the row:
  it multiplies the features ONCE per node with the upper and with the lower half of the message matrix (the first
  kernel: two projections), gathers rows of the two projections per edge and adds them; the update and the
  normalization are the second kernel, again with the matrix in two halves. On the extended reals the two agree
  because a sum over the 512 joined columns is the sum over the first 256 plus the sum over the last 256 — a law of
  every additive commutative monoid, so the precondition (finite inputs) is never opened for it. The narrowing of the
  matrix halves to bf16 is the identity on extended reals; the gathers' row numbers, the scatter-add, the rectifier,
  the division by 256, the variance offset and the reciprocal square root are the same operations on both sides.

  Modules: Spec (the layer entry by entry; the split law), TileSide (the kernels' tile arithmetic read at an entry),
  Reg0 and Reg1 (each kernel's output array from its ten row blocks), KHost (the host lines between the kernels),
  KRun (the kernel program's run with its buffers named), RefSide (the reference's stages read at an entry), Bridge
  (the three equalities that join them). The three frames are the generated ones; the ledger of the idealization is
  empty.
-/
import proofs.«159374_j48120813584763_2_alg».proof.Defs
import proofs.«159374_j48120813584763_2_alg».proof.Proof.Gen.Kernel
import proofs.«159374_j48120813584763_2_alg».proof.Proof.Gen.Kernel.Skeleton
import proofs.«159374_j48120813584763_2_alg».proof.Proof.Gen.Kernel.Launch
import proofs.«159374_j48120813584763_2_alg».proof.Proof.Gen.Kernel.Points
import proofs.«159374_j48120813584763_2_alg».proof.Proof.Gen.Kernel.Frame
import proofs.«159374_j48120813584763_2_alg».proof.Proof.Gen.KernelIdeal
import proofs.«159374_j48120813584763_2_alg».proof.Proof.Gen.KernelIdeal.Skeleton
import proofs.«159374_j48120813584763_2_alg».proof.Proof.Gen.KernelIdeal.Launch
import proofs.«159374_j48120813584763_2_alg».proof.Proof.Gen.KernelIdeal.Points
import proofs.«159374_j48120813584763_2_alg».proof.Proof.Gen.KernelIdeal.Frame
import proofs.«159374_j48120813584763_2_alg».proof.Proof.Gen.ReferenceIdeal
import proofs.«159374_j48120813584763_2_alg».proof.Proof.Gen.ReferenceIdeal.Run
import proofs.«159374_j48120813584763_2_alg».proof.Proof.Gen.ReferenceIdeal.Read
import proofs.«159374_j48120813584763_2_alg».proof.Proof.Gen.Pre_finite_inputs
import proofs.«159374_j48120813584763_2_alg».proof.Proof.KRun
import proofs.«159374_j48120813584763_2_alg».proof.Proof.Bridge
import Idealize.ShloMosaic.Adequacy
import Idealize.ShloMosaic.Init

noncomputable section

namespace Cert.Proof

open Idealize.ShloMosaic Idealize.SL.Sem

/-- The word-level kernel program runs and leaves its arguments unchanged: the generated frame. -/
theorem frame_k : Cert.frame_Kernel := fun m ρ _ => Cert.Kernel.Gen.frame m ρ

/-- The idealized kernel program runs and leaves its arguments unchanged: the generated frame. -/
theorem frame_ki : Cert.frame_KernelIdeal := fun m ρ _ => Cert.KernelIdeal.Gen.frame m ρ

/-- The idealized reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and both end with the result array at what
    the update kernel's row blocks write back — which is the reference's result term of the same arguments. -/
theorem algebraic : Cert.algebraic_KernelIdeal_ReferenceIdeal := by
  intro m ρ m' ρ' _ hagree
  refine ⟨fun c => (Cert.KernelIdeal.Gen.dat1 (Cert.KernelIdeal.Gen.V5 m ρ) c).arrAt 7 Cert.KernelIdeal.cfg1.N,
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq]
  obtain ⟨h0, h1, h2, h3, h4, h5, h6, h7⟩ := hagree c
  rw [h0, h1, h2, h3, h4, h5, h6, h7]
  exact (Cert.Bridge.kernel_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
